-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x16x2048x2048 : Shape := ⟨4, ![4, 16, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x16x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .i1⟩
  | .hbm, ⟨4, _⟩ => ⟨S4x16x2048x2048, .i32⟩
  | .hbm, ⟨5, _⟩ => ⟨S4x16x2048x64, .f32⟩
  | .hbm, ⟨6, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x16x2048x2048.size a
  hwx0_3 : ∀ i : grid0.Coords, EltTy.bits .i32 = 32 ∨ (Rect.block (s := S4x16x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .i1⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x16x2048x2048, .f32⟩
  | .hbm, ⟨10, _⟩ => ⟨S4x16x2048x2048, .f32⟩
  | .hbm, ⟨11, _⟩ => ⟨S_, .f32⟩
  | .hbm, ⟨12, _⟩ => ⟨S4x16x2048, .f32⟩
  | .hbm, ⟨13, _⟩ => ⟨S_, .f32⟩
  | .hbm, ⟨14, _⟩ => ⟨S4x16x2048, .f32⟩
  | .hbm, ⟨15, _⟩ => ⟨S4x16x2048, .f32⟩
  | .hbm, ⟨16, _⟩ => ⟨S4x16x2048x1, .f32⟩
  | .hbm, ⟨17, _⟩ => ⟨S4x16x2048x2048, .f32⟩
  | .hbm, ⟨18, _⟩ => ⟨S4x16x2048x2048, .f32⟩
  | .hbm, ⟨19, _⟩ => ⟨S4x16x2048x2048, .f32⟩
  | .hbm, ⟨20, _⟩ => ⟨S_, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Softmax.lean ====
/-
  Masked scaled-dot-product attention on the extended reals, as one function of the four argument arrays.

  For a batch b, a head h and a query row q the SCORE of key k is (Σ_d Q[b,h,q,d] · K[b,h,k,d]) · 2⁻³, replaced by
  the number -10⁹ where the mask word M[b,h,q,k] is set. The ATTENTION weights of the row are the softmax of its
  scores: exp(s_k − max_j s_j) / Σ_j exp(s_j − max_j' s_j'), the maximum taken as a supremum and the quotient the
  extended reals' division. The CONTEXT row is Σ_k attention[b,h,q,k] · V[b,h,k,d].

  Two small laws are stated here as well. Scaling the query before the contraction or the sum after it is the same
  thing: (q_d · c) · k_d = (q_d · k_d) · c term by term, and a nonnegative finite factor distributes over a finite
  sum of extended reals whatever the terms are (no term needs to be finite). And a mask bit widened to 32 bits is
  nonzero exactly when the bit is set.
-/
import Idealize.ShloMosaic.PureOps.Ideal.Laws
import Idealize.ShloMosaic.Lib.ValueIdx

noncomputable section

namespace Cert.Attention

open Idealize.ShloMosaic Idealize.ShloMosaic.ValueIdx

/-! ## The two literals -/

/-- The f32 pattern 0x3E000000 is the real number 1/8. -/
theorem ofBits_eighth : Ideal.ofBits .f32 0x3E000000#32 = ((0.125 : ℝ) : EReal) := by
  simp [Ideal.ofBits, Ideal.ieee, -EReal.coe_mul]; norm_num

theorem eighth_nonneg : (0 : EReal) ≤ Ideal.ofBits .f32 0x3E000000#32 := by
  rw [ofBits_eighth]; exact EReal.coe_nonneg.2 (by norm_num)

theorem eighth_ne_top : Ideal.ofBits .f32 0x3E000000#32 ≠ (⊤ : EReal) := by
  rw [ofBits_eighth]; exact EReal.coe_ne_top _

/-! ## Scaling before or after a contraction -/

/-- A nonnegative finite factor distributes over a finite sum of extended reals. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- Σ_d (q_d · c) · k_d = (Σ_d q_d · k_d) · c for a nonnegative finite c. -/
theorem scaled_contraction {δ : Type*} [Fintype δ] (q k : δ → EReal) {c : EReal} (h0 : 0 ≤ c) (ht : c ≠ ⊤) :
    ∑ d, (q d * c) * k d = (∑ d, q d * k d) * c := by
  rw [sum_mul_of_nonneg_of_ne_top _ _ h0 ht]
  exact Finset.sum_congr rfl fun d _ => mul_right_comm _ _ _

/-! ## The mask word -/

/-- A bit widened to 32 bits differs from zero exactly when the bit is set. -/
theorem ne_zero_of_widened (b : BitVec 1) : IntOp.cmpi .ne (b.setWidth 32) 0#32 = b := by
  revert b; decide

/-! ## The specification -/

abbrev SQ : Shape := ⟨4, ![4, 16, 2048, 64]⟩
abbrev SA : Shape := ⟨4, ![4, 16, 2048, 2048]⟩

/-- The softmax of a finite row of extended reals, at one of its entries. -/
def rowSoftmax {κ : Type} [Fintype κ] (s : κ → EReal) (k : κ) : EReal :=
  Ideal.div (Ideal.exp (s k - ⨆ j, s j)) (∑ j, Ideal.exp (s j - ⨆ j', s j'))

/-- The masked, scaled score of key `k` for query row `(b, h, q)`. -/
def score (Q K : SQ.Idx → EReal) (M : SA.Idx → BitVec 1) (b : Fin 4) (h : Fin 16) (q k : Fin 2048) : EReal :=
  Scalar.select (M (ix4 b h q k)) (Ideal.ofBits .f32 0xCE6E6B28#32)
    ((∑ d : Fin 64, Q (ix4 b h q d) * K (ix4 b h k d)) * Ideal.ofBits .f32 0x3E000000#32)

/-- The attention weight at `(b, h, q, k)`. -/
def attnAt (Q K : SQ.Idx → EReal) (M : SA.Idx → BitVec 1) (b : Fin 4) (h : Fin 16) (q k : Fin 2048) : EReal :=
  rowSoftmax (score Q K M b h q) k

/-- The context entry at `(b, h, q, d)`. -/
def ctxAt (Q K V : SQ.Idx → EReal) (M : SA.Idx → BitVec 1) (b : Fin 4) (h : Fin 16) (q : Fin 2048) (d : Fin 64) : EReal :=
  ∑ k : Fin 2048, attnAt Q K M b h q k * V (ix4 b h k d)

/-- The attention weights as an array. -/
def attnArr (Q K : SQ.Idx → EReal) (M : SA.Idx → BitVec 1) : SA.Idx → EReal :=
  fun i => attnAt Q K M (i 0) (i 1) (i 2) (i 3)

/-- The context as an array. -/
def ctxArr (Q K V : SQ.Idx → EReal) (M : SA.Idx → BitVec 1) : SQ.Idx → EReal :=
  fun i => ctxAt Q K V M (i 0) (i 1) (i 2) (i 3)

theorem attnArr_ix4 (Q K : SQ.Idx → EReal) (M : SA.Idx → BitVec 1) (b : Fin 4) (h : Fin 16) (q k : Fin 2048) :
    attnArr Q K M (ix4 b h q k) = attnAt Q K M b h q k := rfl

theorem ctxArr_ix4 (Q K V : SQ.Idx → EReal) (M : SA.Idx → BitVec 1) (b : Fin 4) (h : Fin 16) (q : Fin 2048) (d : Fin 64) :
    ctxArr Q K V M (ix4 b h q d) = ctxAt Q K V M b h q d := rfl

end Cert.Attention

end
-- ==== Proof.LibMaxReduce.lean ====
/-
  Maximum reductions over one axis, on the extended reals (the twin of the minimum statements).

  * `fold_max_bot`: folding `max` from the bottom element over all of a finite type gives the supremum of the family
    (both are characterised by: the result is below `z` iff every member is below `z`).
  * `ofBits_neg_inf`: the f32 pattern of `-∞` is the bottom extended real.
  * `multiReduction_maximumf_sup`: a vector max-reduction over one axis from the accumulator `-∞`, read with exact
    values, is at each result index the supremum over that axis's coordinates.
-/
import Idealize.ShloMosaic.PureOps.Ideal.Laws

noncomputable section

namespace Cert.LibMaxReduce

open Idealize.ShloMosaic

/-- Folding `max` from `⊥` over a whole finite type is the supremum of the family. -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of `-∞` is the bottom extended real. -/
theorem ofBits_neg_inf : Ideal.ofBits .f32 0xFF800000#32 = (⊥ : EReal) := by
  simp [Ideal.ofBits, Ideal.ieee]

/-- From the accumulator `-∞` (f32), a max-reduction over one axis is the supremum over that axis's coordinates. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [Ideal.multiReduction_maximumf_single]
  show (Finset.univ : Finset (Fin (s.size a))).fold max (Ideal.ofBits .f32 0xFF800000#32) (src ∘ h.lift j) = _
  rw [ofBits_neg_inf, fold_max_bot]
  rfl

end Cert.LibMaxReduce

end
-- ==== Proof.ReferenceRows.lean ====
/-
  The reference computes the specification.

  Its stages, read at an index (b, h, q, k): the batched contraction of Q and K times 1/8, replaced by -10⁹ where the
  mask bit is set, is the score; the maximum over k from -∞, joined once more with -∞, is the row's supremum; the
  exponential of the difference, its sum over k from 0, and the quotient are the row's softmax; and the batched
  contraction of the weights with V is the context.
-/
import proofs.«130981_j1760936591442_2_alg».proof.Proof.Gen.ReferenceIdeal.Read
import proofs.«130981_j1760936591442_2_alg».proof.Proof.Softmax
import proofs.«130981_j1760936591442_2_alg».proof.Proof.LibMaxReduce

noncomputable section

namespace Cert.Attention.Reference

open Idealize.ShloMosaic Idealize.ShloMosaic.ValueIdx
open Cert.ReferenceIdeal Cert.ReferenceIdeal.Gen Cert.ReferenceIdeal.Read Cert.Attention

variable (x0 x1 x2 : (⟨S4x16x2048x64, .f32⟩ : BufTy).Contents (Elt Ideal))
variable (x3 : (⟨S4x16x2048x2048, .i1⟩ : BufTy).Contents (Elt Ideal))

/-- The masked, scaled product stage is the score. -/
theorem masked_score (b : Fin 4) (h : Fin 16) (q k : Fin 2048) :
    val_main_v3 (F := Ideal) x0 x1 x3 (ix4 b h q k) = score x0 x1 x3 b h q k := by
  rw [val_main_v3_apply, val_main_call0_v0_apply, val_main_cst_0_apply, val_main_v2_apply, val_main_v0_apply,
    val_main_v1_apply, val_main_cst_apply]
  have el : ∀ d : Fin 64, lidx_main_v0 (ix4 b h q k) d = ix4 b h q d := fun d => funext fun a => Fin.ext (by
    match a with | ⟨0, _⟩ => rfl | ⟨1, _⟩ => rfl | ⟨2, _⟩ => rfl | ⟨3, _⟩ => rfl)
  have er : ∀ d : Fin 64, ridx_main_v0 (ix4 b h q k) d = ix4 b h k d := fun d => funext fun a => Fin.ext (by
    match a with | ⟨0, _⟩ => rfl | ⟨1, _⟩ => rfl | ⟨2, _⟩ => rfl | ⟨3, _⟩ => rfl)
  unfold score
  simp only [Ideal.mulf_def, Ideal.ofBits_def, el, er]

/-- The source index over (b, h, q) with coordinate k on the reduced axis. -/
theorem lift_row (hR : S4x16x2048x2048.Reduces [3] S4x16x2048) (b : Fin 4) (h : Fin 16) (q k : Fin 2048) :
    hR.lift (ix3 b h q) k = ix4 b h q k :=
  funext fun a => Fin.ext (by
    match a with | ⟨0, _⟩ => rfl | ⟨1, _⟩ => rfl | ⟨2, _⟩ => rfl | ⟨3, _⟩ => rfl)

/-- The row-maximum stage (the reduce from -∞ joined with -∞) is the supremum of the row's scores. -/
theorem row_max (b : Fin 4) (h : Fin 16) (q : Fin 2048) :
    val_main_v6 (F := Ideal) x0 x1 x3 (ix3 b h q) = ⨆ k : Fin 2048, score x0 x1 x3 b h q k := by
  have hR : S4x16x2048x2048.Reduces [3] S4x16x2048 := by decide
  rw [val_main_v6_apply, val_main_v5_apply, val_main_cst_2_apply]
  unfold val_main_v4
  rw [Host.reduce_eq_fold_single (FloatOps.maximumf (F := Ideal) (φ := .f32)) _ _ reducesTo_S4x16x2048x2048_S4x16x2048_d3 hR h_S_]
  rw [val_main_cst_1_apply]
  show max (Ideal.ofBits .f32 0xFF800000#32)
      ((Finset.univ : Finset (Fin (S4x16x2048x2048.size 3))).fold max (Ideal.ofBits .f32 0xFF800000#32)
        (fun k => val_main_v3 (F := Ideal) x0 x1 x3 (hR.lift (ix3 b h q) k))) = _
  rw [Cert.LibMaxReduce.ofBits_neg_inf, Cert.LibMaxReduce.fold_max_bot, max_bot_left]
  exact iSup_congr fun k =>
    (congrArg (val_main_v3 (F := Ideal) x0 x1 x3) (lift_row hR b h q k)).trans (masked_score x0 x1 x3 b h q k)

/-- The exponential stage. -/
theorem exp_stage (b : Fin 4) (h : Fin 16) (q k : Fin 2048) :
    val_main_v10 (F := Ideal) x0 x1 x3 (ix4 b h q k)
      = Ideal.exp (score x0 x1 x3 b h q k - ⨆ j : Fin 2048, score x0 x1 x3 b h q j) := by
  rw [val_main_v10_apply, val_main_v9_apply, val_main_v8_apply, val_main_v7_apply, masked_score]
  have e : idx_main_v7 (idx_main_v8 (ix4 b h q k)) = ix3 b h q := funext fun a => Fin.ext (by
    match a with | ⟨0, _⟩ => rfl | ⟨1, _⟩ => rfl | ⟨2, _⟩ => rfl)
  rw [e, row_max]
  rfl

/-- The row-sum stage. -/
theorem row_sum (b : Fin 4) (h : Fin 16) (q : Fin 2048) :
    val_main_v11 (F := Ideal) x0 x1 x3 (ix3 b h q)
      = ∑ k : Fin 2048, Ideal.exp (score x0 x1 x3 b h q k - ⨆ j : Fin 2048, score x0 x1 x3 b h q j) := by
  rw [val_main_v11_apply, val_main_cst_3_apply]
  show Ideal.ofBits .f32 0x00000000#32 + _ = _
  rw [Ideal.ofBits_zero_f32, zero_add]
  refine Finset.sum_congr rfl fun k _ => ?_
  have e : idx_main_v11 (ix3 b h q) k = ix4 b h q k := funext fun a => Fin.ext (by
    match a with | ⟨0, _⟩ => rfl | ⟨1, _⟩ => rfl | ⟨2, _⟩ => rfl | ⟨3, _⟩ => rfl)
  rw [e, exp_stage]

/-- The reference's second result, the attention weights. -/
theorem weights_at (b : Fin 4) (h : Fin 16) (q k : Fin 2048) :
    val_main_v14 (F := Ideal) x0 x1 x3 (ix4 b h q k) = attnAt x0 x1 x3 b h q k := by
  rw [val_main_v14_apply, val_main_v13_apply, val_main_v12_apply, exp_stage]
  have e : idx_main_v12 (idx_main_v13 (ix4 b h q k)) = ix3 b h q := funext fun a => Fin.ext (by
    match a with | ⟨0, _⟩ => rfl | ⟨1, _⟩ => rfl | ⟨2, _⟩ => rfl)
  rw [e, row_sum]
  rfl

theorem weights_eq : val_main_v14 (F := Ideal) x0 x1 x3 = attnArr x0 x1 x3 := by
  funext i
  obtain ⟨b, h, q, k, rfl⟩ : ∃ (b : Fin 4) (h : Fin 16) (q k : Fin 2048), i = ix4 b h q k := ⟨i 0, i 1, i 2, i 3, eq_ix4 i⟩
  rw [weights_at, attnArr_ix4]

/-- The reference's first result, the context. -/
theorem context_at (b : Fin 4) (h : Fin 16) (q : Fin 2048) (d : Fin 64) :
    val_main_v15 (F := Ideal) x0 x1 x2 x3 (ix4 b h q d) = ctxAt x0 x1 x2 x3 b h q d := by
  rw [val_main_v15_apply]
  unfold ctxAt
  refine Finset.sum_congr rfl fun k _ => ?_
  have el : lidx_main_v15 (ix4 b h q d) k = ix4 b h q k := funext fun a => Fin.ext (by
    match a with | ⟨0, _⟩ => rfl | ⟨1, _⟩ => rfl | ⟨2, _⟩ => rfl | ⟨3, _⟩ => rfl)
  have er : ridx_main_v15 (ix4 b h q d) k = ix4 b h k d := funext fun a => Fin.ext (by
    match a with | ⟨0, _⟩ => rfl | ⟨1, _⟩ => rfl | ⟨2, _⟩ => rfl | ⟨3, _⟩ => rfl)
  rw [el, er, weights_at]

theorem context_eq : val_main_v15 (F := Ideal) x0 x1 x2 x3 = ctxArr x0 x1 x2 x3 := by
  funext i
  obtain ⟨b, h, q, d, rfl⟩ : ∃ (b : Fin 4) (h : Fin 16) (q : Fin 2048) (d : Fin 64), i = ix4 b h q d := ⟨i 0, i 1, i 2, i 3, eq_ix4 i⟩
  rw [context_at, ctxArr_ix4]

end Cert.Attention.Reference

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibLayout.lean ====
import Idealize.ShloMosaic.Lib.Pipeline.Value
import Idealize.ShloMosaic.Lib.ValueIdx
import Idealize.ShloMosaic.Lib.ValueLayout

/-! # Shape casts and broadcasts read at an index, by coordinates

A shape cast reads the operand at the index with the same row-major position; a broadcast reads it at the same
coordinates, `0` on the operand's unit axes. Each statement names both indices by their coordinates, at any extents:
casts that add unit axes, casts that merge the leading axes into one or split one into several, and broadcasts along
unit axes. -/

namespace Cert.LibLayout

open Idealize.ShloMosaic Idealize.ShloMosaic.ValueIdx
variable {α : Type}

/-! ## Unit axes added by a shape cast -/

/-- An `[a, b, c]` array cast to `[a, 1, b, c]`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu]; simp only [Nat.mul_one, Nat.add_zero, Nat.zero_mul, Nat.zero_add])

/-- An `[a, b]` array cast to `[1, 1, a, b]`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp only [Nat.mul_one, Nat.add_zero, Nat.zero_mul, Nat.zero_add])

/-- An `[a]` array cast to `[1, 1, 1, a]`. -/
theorem shapeCast_a_111a_apply {a : ℕ} (x : (⟨1, ![a]⟩ : Shape).Idx → α)
    (h : (⟨1, ![a]⟩ : Shape).ShapeCasts ⟨4, ![1, 1, 1, a]⟩) (u v w : Fin 1) (i : Fin a) :
    shapeCast ⟨4, ![1, 1, 1, a]⟩ x h (ix4 u v w i) = x (ix1 i) :=
  shapeCast_apply x h _ _ (by
    have hu : u.val = 0 := by omega
    have hv : v.val = 0 := by omega
    have hw : w.val = 0 := by omega
    rw [Shape.rowMajor_val_one, Shape.rowMajor_val_four]
    show i.val = ((u.val * 1 + v.val) * 1 + w.val) * a + i.val
    rw [hu, hv, hw]; simp only [Nat.mul_one, Nat.add_zero, Nat.zero_mul, Nat.zero_add])

/-- An `[a]` array cast to `[1, 1, a]`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]; simp only [Nat.mul_one, Nat.add_zero, Nat.zero_mul, Nat.zero_add])

/-- An `[a, b, c]` array cast to `[a, b, c, 1]`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu]; simp only [Nat.mul_one, Nat.add_zero, Nat.zero_mul, Nat.zero_add])

/-- An `[a, b]` array cast to `[a, 1, b]`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu]; simp only [Nat.mul_one, Nat.add_zero, Nat.zero_mul, Nat.zero_add])

/-- An `[a, b]` array cast to `[a, b, 1]`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu]; simp only [Nat.mul_one, Nat.add_zero, Nat.zero_mul, Nat.zero_add])

/-! ## Leading axes merged into one, or one split into several -/

/-- An `[a, b, c, d]` array cast to `[n, d]` (the three leading axes merged): row `r` is the leading coordinates' row-major position. -/
theorem shapeCast_abcd_nd_apply {a b c d n : ℕ} (x : (⟨4, ![a, b, c, d]⟩ : Shape).Idx → α)
    (h : (⟨4, ![a, b, c, d]⟩ : Shape).ShapeCasts ⟨2, ![n, d]⟩) (i : Fin a) (j : Fin b) (k : Fin c) (l : Fin d) (r : Fin n) (hr : r.val = (i.val * b + j.val) * c + k.val) :
    shapeCast ⟨2, ![n, d]⟩ x h (ix2 r l) = x (ix4 i j k l) :=
  shapeCast_apply x h _ _ (by
    rw [Shape.rowMajor_val_four, Shape.rowMajor_val_two]
    show ((i.val * b + j.val) * c + k.val) * d + l.val = r.val * d + l.val
    rw [hr])

/-- An `[n, d]` array cast to `[a, b, c, d]` (the leading axis split in three). -/
theorem shapeCast_nd_abcd_apply {a b c d n : ℕ} (x : (⟨2, ![n, d]⟩ : Shape).Idx → α)
    (h : (⟨2, ![n, d]⟩ : Shape).ShapeCasts ⟨4, ![a, b, c, d]⟩) (i : Fin a) (j : Fin b) (k : Fin c) (l : Fin d) (r : Fin n) (hr : r.val = (i.val * b + j.val) * c + k.val) :
    shapeCast ⟨4, ![a, b, c, d]⟩ x h (ix4 i j k l) = x (ix2 r l) :=
  shapeCast_apply x h _ _ (by
    rw [Shape.rowMajor_val_two, Shape.rowMajor_val_four]
    show r.val * d + l.val = ((i.val * b + j.val) * c + k.val) * d + l.val
    rw [hr])

/-- An `[a, b, c]` array cast to `[n, c]` (the two leading axes merged). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` (the leading axis split in two). -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-! ## Broadcasts along unit axes -/

/-- An `[a, 1, c, d]` array broadcast to `[a, b, c, d]`. -/
theorem broadcastTo_a1cd_abcd_apply {a b c d : ℕ} (x : (⟨4, ![a, 1, c, d]⟩ : Shape).Idx → α)
    (h : (⟨4, ![a, 1, c, d]⟩ : Shape).Broadcasts ⟨4, ![a, b, c, d]⟩) (i : Fin a) (j : Fin b) (k : Fin c) (l : Fin d) :
    broadcastTo ⟨4, ![a, b, c, d]⟩ x h (ix4 i j k l) = x (ix4 i (0 : Fin 1) k l) := by
  refine broadcastTo_apply x h (ix4 i j k l) (ix4 i (0 : Fin 1) k l) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, b, c, d]` array broadcast to `[a, b, c, d]`. -/
theorem broadcastTo_1bcd_abcd_apply {a b c d : ℕ} (x : (⟨4, ![1, b, c, d]⟩ : Shape).Idx → α)
    (h : (⟨4, ![1, b, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) j k l) := by
  refine broadcastTo_apply x h (ix4 i j k l) (ix4 (0 : Fin 1) j k l) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, c, d]` array broadcast to `[a, b, c, d]`. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) k l) := by
  refine broadcastTo_apply x h (ix4 i j k l) (ix4 (0 : Fin 1) (0 : Fin 1) k l) fun ax => ?_
  match ax with
  | ⟨0, _⟩ => rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, 1, d]` array broadcast to `[a, b, c, d]`. -/
theorem broadcastTo_111d_abcd_apply {a b c d : ℕ} (x : (⟨4, ![1, 1, 1, d]⟩ : Shape).Idx → α)
    (h : (⟨4, ![1, 1, 1, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) (0 : Fin 1) l) := by
  refine broadcastTo_apply x h (ix4 i j k l) (ix4 (0 : Fin 1) (0 : Fin 1) (0 : Fin 1) l) fun ax => ?_
  match ax with
  | ⟨0, _⟩ => rfl
  | ⟨1, _⟩ => rfl
  | ⟨2, _⟩ => rfl
  | ⟨3, _⟩ =>
    show l.val = if d = 1 then 0 else l.val
    split
    · have := l.isLt; omega
    · rfl

/-- An `[a, b, c, 1]` array broadcast to `[a, b, c, d]`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1, c]` array broadcast to `[a, b, c]`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibLayout
-- ==== Proof.LibUnitAxesCast.lean ====
/-
  Two leading unit axes dropped by a shape cast.

  A `[1, 1, a, b]` array cast to `[a, b]` (what a kernel does with a block whose batch and head axes are squeezed)
  reads, at `(i, j)`, the operand at `(0, 0, i, j)`: both indices have the row-major position `i · b + j`.
  (The opposite cast, `[a, b]` to `[1, 1, a, b]`, is its companion among the casts that add unit axes.)
-/
import Idealize.ShloMosaic.Lib.Pipeline.Value
import Idealize.ShloMosaic.Lib.ValueIdx

namespace Cert.LibUnitAxesCast

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Cert.LibUnitAxesCast
-- ==== Proof.BlockRows.lean ====
/-
  What the kernel body computes on one block, read at an entry.

  The body holds a block of 512 query rows [1,1,512,64], all 2048 key rows and value rows [1,1,2048,64] and the
  block's mask words [1,1,512,2048]. Its score at (p, k) is Σ_d (Q(p,d) · 1/8) · K(k,d) — the query scaled before
  the product, the product accumulated from zero — replaced by -10⁹ where the mask word is nonzero. The weights are
  the row softmax of the scores (the row maximum from -∞, the exponential of the difference, its row sum from zero,
  the quotient), and the context entry (p, d) is Σ_k weight(p,k) · V(k,d), again accumulated from zero. Changes of
  float format are the identity on exact values.
-/
import proofs.«130981_j1760936591442_2_alg».proof.Proof.Gen.KernelIdeal.Skeleton
import proofs.«130981_j1760936591442_2_alg».proof.Proof.Softmax
import proofs.«130981_j1760936591442_2_alg».proof.Proof.LibMaxReduce
import proofs.«130981_j1760936591442_2_alg».proof.Proof.LibColumnCast
import proofs.«130981_j1760936591442_2_alg».proof.Proof.LibColumnBroadcast
import proofs.«130981_j1760936591442_2_alg».proof.Proof.LibLayout
import proofs.«130981_j1760936591442_2_alg».proof.Proof.LibUnitAxesCast
import Idealize.ShloMosaic.Lib.ValueIdx
import Idealize.ShloMosaic.Lib.Pipeline.Value
import Idealize.ShloMosaic.PureOps.Ideal.Laws

noncomputable section

namespace Cert.Attention.Block

open Idealize.ShloMosaic Idealize.ShloMosaic.ValueIdx
open Cert.KernelIdeal Cert.KernelIdeal.Gen Cert.Attention

/-! ## The two block products as sums -/

theorem qk_lhs_0 (i : S512x2048.Idx) (c : dot_S512x64_S2048x64_S512x2048_1_1_0_0_n_n.contr.Idx) :
    (dot_S512x64_S2048x64_S512x2048_1_1_0_0_n_n.lhsIdx i c 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs_1 (i : S512x2048.Idx) (c : dot_S512x64_S2048x64_S512x2048_1_1_0_0_n_n.contr.Idx) :
    (dot_S512x64_S2048x64_S512x2048_1_1_0_0_n_n.lhsIdx i c 1).val = (c ⟨0, by decide⟩).val :=
  dot_S512x64_S2048x64_S512x2048_1_1_0_0_n_n.lhsIdx_val_of_single rfl i c
theorem qk_rhs_0 (i : S512x2048.Idx) (c : dot_S512x64_S2048x64_S512x2048_1_1_0_0_n_n.contr.Idx) :
    (dot_S512x64_S2048x64_S512x2048_1_1_0_0_n_n.rhsIdx i c 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs_1 (i : S512x2048.Idx) (c : dot_S512x64_S2048x64_S512x2048_1_1_0_0_n_n.contr.Idx) :
    (dot_S512x64_S2048x64_S512x2048_1_1_0_0_n_n.rhsIdx i c 1).val = (c ⟨0, by decide⟩).val :=
  dot_S512x64_S2048x64_S512x2048_1_1_0_0_n_n.rhsIdx_val_of_single rfl i c

/-- The product of a [512,64] block with a [2048,64] block along their last axes, from zero:
    at (p, k) the sum over d of A(p,d) · B(k,d). -/
theorem qk_product {φ₁ φ₂ : FTy} (A : FVec Ideal S512x64 φ₁) (B : FVec Ideal S2048x64 φ₂) (p : Fin 512) (k : Fin 2048) :
    matmul dot_S512x64_S2048x64_S512x2048_1_1_0_0_n_n none A B (constant S512x2048 .f32 0x00000000#32) (ix2 p k)
      = ∑ d : Fin 64, A (ix2 p d) * B (ix2 k d) := by
  simp only [matmul]
  rw [Ideal.matmul_constant_zero_apply,
    ← Equiv.sum_comp (ValueIdx.contrEquiv1 dot_S512x64_S2048x64_S512x2048_1_1_0_0_n_n 64 rfl rfl).symm]
  refine Finset.sum_congr rfl fun d _ => ?_
  have hd := ValueIdx.contrEquiv1_symm_val dot_S512x64_S2048x64_S512x2048_1_1_0_0_n_n 64 rfl rfl d
  have el : dot_S512x64_S2048x64_S512x2048_1_1_0_0_n_n.lhsIdx (ix2 p k)
      ((ValueIdx.contrEquiv1 dot_S512x64_S2048x64_S512x2048_1_1_0_0_n_n 64 rfl rfl).symm d) = ix2 p d :=
    funext fun a => Fin.ext (by
      match a with
      | ⟨0, _⟩ => exact qk_lhs_0 _ _
      | ⟨1, _⟩ => exact (qk_lhs_1 _ _).trans hd)
  have er : dot_S512x64_S2048x64_S512x2048_1_1_0_0_n_n.rhsIdx (ix2 p k)
      ((ValueIdx.contrEquiv1 dot_S512x64_S2048x64_S512x2048_1_1_0_0_n_n 64 rfl rfl).symm d) = ix2 k d :=
    funext fun a => Fin.ext (by
      match a with
      | ⟨0, _⟩ => exact qk_rhs_0 _ _
      | ⟨1, _⟩ => exact (qk_rhs_1 _ _).trans hd)
  rw [el, er]

theorem av_lhs_0 (i : S512x64.Idx) (c : dot_S512x2048_S2048x64_S512x64_1_0_0_1_n_n.contr.Idx) :
    (dot_S512x2048_S2048x64_S512x64_1_0_0_1_n_n.lhsIdx i c 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem av_lhs_1 (i : S512x64.Idx) (c : dot_S512x2048_S2048x64_S512x64_1_0_0_1_n_n.contr.Idx) :
    (dot_S512x2048_S2048x64_S512x64_1_0_0_1_n_n.lhsIdx i c 1).val = (c ⟨0, by decide⟩).val :=
  dot_S512x2048_S2048x64_S512x64_1_0_0_1_n_n.lhsIdx_val_of_single rfl i c
theorem av_rhs_0 (i : S512x64.Idx) (c : dot_S512x2048_S2048x64_S512x64_1_0_0_1_n_n.contr.Idx) :
    (dot_S512x2048_S2048x64_S512x64_1_0_0_1_n_n.rhsIdx i c 0).val = (c ⟨0, by decide⟩).val :=
  dot_S512x2048_S2048x64_S512x64_1_0_0_1_n_n.rhsIdx_val_of_single rfl i c
theorem av_rhs_1 (i : S512x64.Idx) (c : dot_S512x2048_S2048x64_S512x64_1_0_0_1_n_n.contr.Idx) :
    (dot_S512x2048_S2048x64_S512x64_1_0_0_1_n_n.rhsIdx i c 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The product of a [512,2048] block with a [2048,64] block, from zero: at (p, d) the sum over k of A(p,k) · B(k,d). -/
theorem av_product {φ₁ φ₂ : FTy} (A : FVec Ideal S512x2048 φ₁) (B : FVec Ideal S2048x64 φ₂) (p : Fin 512) (d : Fin 64) :
    matmul dot_S512x2048_S2048x64_S512x64_1_0_0_1_n_n none A B (constant S512x64 .f32 0x00000000#32) (ix2 p d)
      = ∑ k : Fin 2048, A (ix2 p k) * B (ix2 k d) := by
  simp only [matmul]
  rw [Ideal.matmul_constant_zero_apply,
    ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p d)
      ((ValueIdx.contrEquiv1 dot_S512x2048_S2048x64_S512x64_1_0_0_1_n_n 2048 rfl rfl).symm k) = ix2 p k :=
    funext fun a => Fin.ext (by
      match a with
      | ⟨0, _⟩ => exact av_lhs_0 _ _
      | ⟨1, _⟩ => exact (av_lhs_1 _ _).trans hk)
  have er : dot_S512x2048_S2048x64_S512x64_1_0_0_1_n_n.rhsIdx (ix2 p d)
      ((ValueIdx.contrEquiv1 dot_S512x2048_S2048x64_S512x64_1_0_0_1_n_n 2048 rfl rfl).symm k) = ix2 k d :=
    funext fun a => Fin.ext (by
      match a with
      | ⟨0, _⟩ => exact (av_rhs_0 _ _).trans hk
      | ⟨1, _⟩ => exact av_rhs_1 _ _)
  rw [el, er]

/-! ## The block's scores -/

/-- The block's masked scores, as the body computes them. -/
def scoreBlock (P0 : Vec Ideal S1x1x512x64 .f32) (P1 : Vec Ideal S1x1x2048x64 .f32) (P2 : Vec Ideal S1x1x512x2048 .i32) :
    FVec Ideal S512x2048 .f32 :=
  select (cmpi .ne (shapeCast S512x2048 P2 shapeCasts_S1x1x512x2048_S512x2048) (constantI S512x2048 32 0#32))
    (broadcast S512x2048 (Scalar.ofBits (F := Ideal) .f32 0xCE6E6B28#32))
    (matmul dot_S512x64_S2048x64_S512x2048_1_1_0_0_n_n none
      (truncf .bf16 (mulf (shapeCast S512x64 P0 shapeCasts_S1x1x512x64_S512x64)
        (broadcast S512x64 (Scalar.ofBits (F := Ideal) .f32 0x3E000000#32))) bitsLt_bf16_f32)
      (truncf .bf16 (shapeCast S2048x64 P1 shapeCasts_S1x1x2048x64_S2048x64) bitsLt_bf16_f32)
      (constant S512x2048 .f32 0x00000000#32))

/-- The score of key k for the block's query row p. -/
def scoreAt (P0 : Vec Ideal S1x1x512x64 .f32) (P1 : Vec Ideal S1x1x2048x64 .f32) (P2 : Vec Ideal S1x1x512x2048 .i32)
    (p : Fin 512) (k : Fin 2048) : EReal :=
  Scalar.select (IntOp.cmpi .ne (P2 (ix4 (0 : Fin 1) (0 : Fin 1) p k)) 0#32) (Ideal.ofBits .f32 0xCE6E6B28#32)
    (∑ d : Fin 64, (P0 (ix4 (0 : Fin 1) (0 : Fin 1) p d) * Ideal.ofBits .f32 0x3E000000#32) * P1 (ix4 (0 : Fin 1) (0 : Fin 1) k d))

theorem scoreBlock_apply (P0 : Vec Ideal S1x1x512x64 .f32) (P1 : Vec Ideal S1x1x2048x64 .f32) (P2 : Vec Ideal S1x1x512x2048 .i32)
    (p : Fin 512) (k : Fin 2048) : scoreBlock P0 P1 P2 (ix2 p k) = scoreAt P0 P1 P2 p k := by
  unfold scoreBlock scoreAt
  rw [select_apply, qk_product]
  show Scalar.select (IntOp.cmpi .ne (shapeCast S512x2048 P2 shapeCasts_S1x1x512x2048_S512x2048 (ix2 p k)) 0#32)
      (Ideal.ofBits .f32 0xCE6E6B28#32)
      (∑ d : Fin 64, (shapeCast S512x64 P0 shapeCasts_S1x1x512x64_S512x64 (ix2 p d) * Ideal.ofBits .f32 0x3E000000#32)
        * shapeCast S2048x64 P1 shapeCasts_S1x1x2048x64_S2048x64 (ix2 k d)) = _
  rw [Cert.LibUnitAxesCast.shapeCast_11ab_ab_apply]
  refine congrArg _ (Finset.sum_congr rfl fun d _ => ?_)
  rw [Cert.LibUnitAxesCast.shapeCast_11ab_ab_apply, Cert.LibUnitAxesCast.shapeCast_11ab_ab_apply]

/-! ## The row softmax of a block of scores -/

/-- The exponentials of a block of scores less their row maxima, as the body computes them. -/
def expBlock (s : FVec Ideal S512x2048 .f32) : FVec Ideal S512x2048 .f32 :=
  Idealize.ShloMosaic.exp (subf s (broadcastTo S512x2048
    (shapeCast S512x1 (multiReduction .maximumf [1] S512 s 0xFF800000#32 reduces_S512x2048_S512 (.inl rfl) rfl) shapeCasts_S512_S512x1)
    broadcasts_S512x1_S512x2048))

/-- The row softmax of a block of scores, as the body computes it. -/
def softBlock (s : FVec Ideal S512x2048 .f32) : FVec Ideal S512x2048 .f32 :=
  divf (expBlock s) (broadcastTo S512x2048
    (shapeCast S512x1 (multiReduction .add [1] S512 (expBlock s) 0x00000000#32 reduces_S512x2048_S512 (.inl rfl) rfl) shapeCasts_S512_S512x1)
    broadcasts_S512x1_S512x2048)

/-- The source index over row p with coordinate k on the reduced axis. -/
theorem lift_col (p : Fin 512) (k : Fin 2048) : reduces_S512x2048_S512.lift (ix1 p) k = ix2 p k :=
  funext fun a => Fin.ext (by match a with | ⟨0, _⟩ => rfl | ⟨1, _⟩ => rfl)

/-- The row maximum of a block from -∞ is the supremum of the row. -/
theorem row_max_block (s : FVec Ideal S512x2048 .f32) (p : Fin 512) :
    multiReduction .maximumf [1] S512 s 0xFF800000#32 reduces_S512x2048_S512 (.inl rfl) rfl (ix1 p)
      = ⨆ j : Fin 2048, s (ix2 p j) :=
  (Cert.LibMaxReduce.multiReduction_maximumf_sup s reduces_S512x2048_S512 (.inl rfl) rfl (ix1 p)).trans
    (iSup_congr fun j => congrArg s (lift_col p j))

/-- The row sum of a block from zero is the sum of the row. -/
theorem row_sum_block (e : FVec Ideal S512x2048 .f32) (p : Fin 512) :
    multiReduction .add [1] S512 e 0x00000000#32 reduces_S512x2048_S512 (.inl rfl) rfl (ix1 p)
      = ∑ j : Fin 2048, e (ix2 p j) :=
  (Ideal.multiReduction_add_single e 0x00000000#32 reduces_S512x2048_S512 (.inl rfl) rfl (ix1 p)).trans
    (Finset.sum_congr rfl fun j _ => congrArg e (lift_col p j))

theorem expBlock_apply (s : FVec Ideal S512x2048 .f32) (p : Fin 512) (k : Fin 2048) :
    expBlock s (ix2 p k) = Ideal.exp (s (ix2 p k) - ⨆ j : Fin 2048, s (ix2 p j)) := by
  unfold expBlock
  show Ideal.exp (s (ix2 p k) - broadcastTo S512x2048
    (shapeCast S512x1 (multiReduction .maximumf [1] S512 s 0xFF800000#32 reduces_S512x2048_S512 (.inl rfl) rfl) shapeCasts_S512_S512x1)
    broadcasts_S512x1_S512x2048 (ix2 p k)) = _
  rw [Cert.LibColumnBroadcast.broadcastTo_a1_ab_apply, Cert.LibColumnCast.shapeCast_a_a1_apply]
  exact congrArg (fun z => Ideal.exp (s (ix2 p k) - z)) (row_max_block s p)

theorem softBlock_apply (s : FVec Ideal S512x2048 .f32) (p : Fin 512) (k : Fin 2048) :
    softBlock s (ix2 p k) = rowSoftmax (fun j : Fin 2048 => s (ix2 p j)) k := by
  unfold softBlock rowSoftmax
  show Ideal.div (expBlock s (ix2 p k)) (broadcastTo S512x2048
    (shapeCast S512x1 (multiReduction .add [1] S512 (expBlock s) 0x00000000#32 reduces_S512x2048_S512 (.inl rfl) rfl) shapeCasts_S512_S512x1)
    broadcasts_S512x1_S512x2048 (ix2 p k)) = _
  rw [Cert.LibColumnBroadcast.broadcastTo_a1_ab_apply, Cert.LibColumnCast.shapeCast_a_a1_apply]
  refine (congrArg (Ideal.div (expBlock s (ix2 p k))) (row_sum_block (expBlock s) p)).trans ?_
  have e : ∀ j : Fin 2048, expBlock s (ix2 p j) = Ideal.exp (s (ix2 p j) - ⨆ j' : Fin 2048, s (ix2 p j')) :=
    expBlock_apply s p
  simp only [e]

/-! ## The two payloads -/

/-- The weights payload is the row softmax of the block's scores. -/
theorem weights_payload_eq (P0 : Vec Ideal S1x1x512x64 .f32) (P1 : Vec Ideal S1x1x2048x64 .f32) (P2 : Vec Ideal S1x1x512x2048 .i32) :
    k0_pay2 (F := Ideal) P0 P1 P2 = softBlock (scoreBlock P0 P1 P2) := rfl

theorem weights_payload (P0 : Vec Ideal S1x1x512x64 .f32) (P1 : Vec Ideal S1x1x2048x64 .f32) (P2 : Vec Ideal S1x1x512x2048 .i32)
    (p : Fin 512) (k : Fin 2048) :
    k0_pay2 (F := Ideal) P0 P1 P2 (ix2 p k) = rowSoftmax (scoreAt P0 P1 P2 p) k := by
  rw [weights_payload_eq, softBlock_apply]
  exact congrArg (fun f => rowSoftmax f k) (funext fun j => scoreBlock_apply P0 P1 P2 p j)

/-- The context payload at (u, v, p, d) is the sum over k of the weights at (p, k) times the value block at (k, d). -/
theorem context_payload (P0 : Vec Ideal S1x1x512x64 .f32) (P1 : Vec Ideal S1x1x2048x64 .f32) (P2 : Vec Ideal S1x1x512x2048 .i32)
    (X2 : Vec Ideal S1x1x2048x64 .f32) (u v : Fin 1) (p : Fin 512) (d : Fin 64) :
    k0_pay1 (F := Ideal) (k0_pay4 X2) (k0_pay5 P0 P1 P2) (ix4 u v p d)
      = ∑ k : Fin 2048, k0_pay2 (F := Ideal) P0 P1 P2 (ix2 p k) * X2 (ix4 (0 : Fin 1) (0 : Fin 1) k d) := by
  show shapeCast S1x1x512x64 (matmul dot_S512x2048_S2048x64_S512x64_1_0_0_1_n_n none (k0_pay5 P0 P1 P2) (k0_pay4 X2)
      (constant S512x64 .f32 0x00000000#32)) shapeCasts_S512x64_S1x1x512x64 (ix4 u v p d) = _
  rw [Cert.LibLayout.shapeCast_ab_11ab_apply, av_product]
  refine Finset.sum_congr rfl fun k _ => ?_
  show k0_pay2 (F := Ideal) P0 P1 P2 (ix2 p k) * shapeCast S2048x64 X2 shapeCasts_S1x1x2048x64_S2048x64 (ix2 k d) = _
  rw [Cert.LibUnitAxesCast.shapeCast_11ab_ab_apply]

/-! ## A block that is a block of the arrays

When the body's blocks are the argument arrays read at batch b, head h and rows around q — the query block's row p the
query row q, the key and value blocks all rows of (b, h), the mask block's row p the mask bits of row q widened to 32
bits — the block's score is the specification's (the 1/8 moved across the contraction, the widened bit tested for being
set), so its weights and its context entries are the specification's. -/

section OfArrays

variable (A0 A1 A2 : SQ.Idx → EReal) (A3 : SA.Idx → BitVec 1)
variable (P0 : Vec Ideal S1x1x512x64 .f32) (P1 X2 : Vec Ideal S1x1x2048x64 .f32) (P2 : Vec Ideal S1x1x512x2048 .i32)
variable (b : Fin 4) (h : Fin 16) (q : Fin 2048) (p : Fin 512)

theorem scoreAt_eq
    (h0 : ∀ d : Fin 64, P0 (ix4 (0 : Fin 1) (0 : Fin 1) p d) = A0 (ix4 b h q d))
    (h1 : ∀ (j : Fin 2048) (d : Fin 64), P1 (ix4 (0 : Fin 1) (0 : Fin 1) j d) = A1 (ix4 b h j d))
    (h3 : ∀ j : Fin 2048, P2 (ix4 (0 : Fin 1) (0 : Fin 1) p j) = (A3 (ix4 b h q j)).setWidth 32) (j : Fin 2048) :
    scoreAt P0 P1 P2 p j = score A0 A1 A3 b h q j := by
  unfold scoreAt score
  rw [h3 j, ne_zero_of_widened]
  refine congrArg _ ?_
  simp only [h0, h1]
  exact scaled_contraction _ _ eighth_nonneg eighth_ne_top

theorem weights_of_blocks
    (h0 : ∀ d : Fin 64, P0 (ix4 (0 : Fin 1) (0 : Fin 1) p d) = A0 (ix4 b h q d))
    (h1 : ∀ (j : Fin 2048) (d : Fin 64), P1 (ix4 (0 : Fin 1) (0 : Fin 1) j d) = A1 (ix4 b h j d))
    (h3 : ∀ j : Fin 2048, P2 (ix4 (0 : Fin 1) (0 : Fin 1) p j) = (A3 (ix4 b h q j)).setWidth 32) (k : Fin 2048) :
    k0_pay2 (F := Ideal) P0 P1 P2 (ix2 p k) = attnAt A0 A1 A3 b h q k := by
  rw [weights_payload]
  unfold attnAt
  exact congrArg (fun f => rowSoftmax f k) (funext fun j => scoreAt_eq A0 A1 A3 P0 P1 P2 b h q p h0 h1 h3 j)

theorem context_of_blocks
    (h0 : ∀ d : Fin 64, P0 (ix4 (0 : Fin 1) (0 : Fin 1) p d) = A0 (ix4 b h q d))
    (h1 : ∀ (j : Fin 2048) (d : Fin 64), P1 (ix4 (0 : Fin 1) (0 : Fin 1) j d) = A1 (ix4 b h j d))
    (h2 : ∀ (j : Fin 2048) (d : Fin 64), X2 (ix4 (0 : Fin 1) (0 : Fin 1) j d) = A2 (ix4 b h j d))
    (h3 : ∀ j : Fin 2048, P2 (ix4 (0 : Fin 1) (0 : Fin 1) p j) = (A3 (ix4 b h q j)).setWidth 32)
    (u v : Fin 1) (d : Fin 64) :
    k0_pay1 (F := Ideal) (k0_pay4 X2) (k0_pay5 P0 P1 P2) (ix4 u v p d) = ctxAt A0 A1 A2 A3 b h q d := by
  rw [context_payload]
  unfold ctxAt
  refine Finset.sum_congr rfl fun k _ => ?_
  rw [weights_of_blocks A0 A1 A3 P0 P1 P2 b h q p h0 h1 h3 k, h2]

end OfArrays

end Cert.Attention.Block

end
-- ==== Proof.Blocks.lean ====
/-
  From the kernel's blocks to its two result arrays.

  The grid has 4 · 16 · 4 points; point t works on batch t / 64, head (t / 4) mod 16 and the query rows
  512 · (t mod 4) … 512 · (t mod 4) + 511. There the query block is those rows of Q, the key and value blocks are all
  rows of K and V for that batch and head, and the mask block is those rows of the mask, each bit widened to a 32-bit
  word by the host before the call. So what the point writes back is the block of the attention weights, and the block
  of the context, of the specification; the blocks of all points cover both result arrays.
-/
import proofs.«130981_j1760936591442_2_alg».proof.Proof.Gen.KernelIdeal.Value
import proofs.«130981_j1760936591442_2_alg».proof.Proof.BlockRows
import Idealize.ShloMosaic.Lib.Pipeline.Value
import Idealize.ShloMosaic.Lib.StableHlo.Run

noncomputable section

namespace Cert.Attention.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Attention

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The index maps, decided over the grid -/

/-- The query window's block index at point t. -/
theorem index0 : ∀ t : Fin cfg0.N, win0_0.index t 0 = t.val / 64 ∧ win0_0.index t 1 = t.val / 4 % 16
    ∧ win0_0.index t 2 = t.val % 4 ∧ win0_0.index t 3 = 0 :=
  (by decide +kernel : ∀ t : Fin grid0.N, _)
/-- The key window's. -/
theorem index1 : ∀ t : Fin cfg0.N, win0_1.index t 0 = t.val / 64 ∧ win0_1.index t 1 = t.val / 4 % 16
    ∧ win0_1.index t 2 = 0 ∧ win0_1.index t 3 = 0 :=
  (by decide +kernel : ∀ t : Fin grid0.N, _)
/-- The value window's. -/
theorem index2 : ∀ t : Fin cfg0.N, win0_2.index t 0 = t.val / 64 ∧ win0_2.index t 1 = t.val / 4 % 16
    ∧ win0_2.index t 2 = 0 ∧ win0_2.index t 3 = 0 :=
  (by decide +kernel : ∀ t : Fin grid0.N, _)
/-- The mask window's. -/
theorem index3 : ∀ t : Fin cfg0.N, win0_3.index t 0 = t.val / 64 ∧ win0_3.index t 1 = t.val / 4 % 16
    ∧ win0_3.index t 2 = t.val % 4 ∧ win0_3.index t 3 = 0 :=
  (by decide +kernel : ∀ t : Fin grid0.N, _)
/-- The context window's. -/
theorem index4 : ∀ t : Fin cfg0.N, win0_4.index t 0 = t.val / 64 ∧ win0_4.index t 1 = t.val / 4 % 16
    ∧ win0_4.index t 2 = t.val % 4 ∧ win0_4.index t 3 = 0 :=
  (by decide +kernel : ∀ t : Fin grid0.N, _)
/-- The weights window's. -/
theorem index5 : ∀ t : Fin cfg0.N, win0_5.index t 0 = t.val / 64 ∧ win0_5.index t 1 = t.val / 4 % 16
    ∧ win0_5.index t 2 = t.val % 4 ∧ win0_5.index t 3 = 0 :=
  (by decide +kernel : ∀ t : Fin grid0.N, _)

/-! ## The argument arrays, and the input blocks as their rows -/

abbrev Qa (c : Dev nD) : SQ.Idx → EReal := m ((c : Thread nD τ).loc main_arg0)
abbrev Ka (c : Dev nD) : SQ.Idx → EReal := m ((c : Thread nD τ).loc main_arg1)
abbrev Va (c : Dev nD) : SQ.Idx → EReal := m ((c : Thread nD τ).loc main_arg2)
abbrev Ma (c : Dev nD) : SA.Idx → BitVec 1 := m ((c : Thread nD τ).loc main_arg3)

/-- The mask words the region finds: the host widened each mask bit to 32 bits. -/
theorem mask_words (c : Dev nD) :
    (V m c main_v0 : S4x16x2048x2048.Idx → BitVec 32) = extui 32 (Ma m c) natLt_1_32 := by
  dsimp only [V, hostOps0]; after_results

variable (c : Dev nD) (t : Fin cfg0.N) (b : Fin 4) (h : Fin 16) (q : Fin 2048) (p : Fin 512)

/-- Row p of the query block at point t is query row q = 512 · (t mod 4) + p of batch b = t / 64, head h = (t / 4) mod 16. -/
theorem query_rows (hb : b.val = t.val / 64) (hh : h.val = t.val / 4 % 16) (hq : q.val = t.val % 4 * 512 + p.val) (d : Fin 64) :
    (iblk m c 0 t : Vec Ideal S1x1x512x64 .f32) (ix4 (0 : Fin 1) (0 : Fin 1) p d) = Qa m c (ix4 b h q d) := by
  obtain ⟨e0, e1, e2, e3⟩ := index0 t
  unfold iblk
  rw [View.read_apply]
  show V m c main_arg0 _ = _
  rw [V_main_arg0]
  refine congrArg _ (funext fun a => Fin.ext ?_)
  match a with
  | ⟨0, _⟩ => show win0_0.index t 0 * 1 + 1 * 0 = b.val; omega
  | ⟨1, _⟩ => show win0_0.index t 1 * 1 + 1 * 0 = h.val; omega
  | ⟨2, _⟩ => show win0_0.index t 2 * 512 + 1 * p.val = q.val; omega
  | ⟨3, _⟩ => show win0_0.index t 3 * 64 + 1 * d.val = d.val; omega

/-- Row j of the key block at point t is key row j of that batch and head. -/
theorem key_rows (hb : b.val = t.val / 64) (hh : h.val = t.val / 4 % 16) (j : Fin 2048) (d : Fin 64) :
    (iblk m c 1 t : Vec Ideal S1x1x2048x64 .f32) (ix4 (0 : Fin 1) (0 : Fin 1) j d) = Ka m c (ix4 b h j d) := by
  obtain ⟨e0, e1, e2, e3⟩ := index1 t
  unfold iblk
  rw [View.read_apply]
  show V m c main_arg1 _ = _
  rw [V_main_arg1]
  refine congrArg _ (funext fun a => Fin.ext ?_)
  match a with
  | ⟨0, _⟩ => show win0_1.index t 0 * 1 + 1 * 0 = b.val; omega
  | ⟨1, _⟩ => show win0_1.index t 1 * 1 + 1 * 0 = h.val; omega
  | ⟨2, _⟩ => show win0_1.index t 2 * 2048 + 1 * j.val = j.val; omega
  | ⟨3, _⟩ => show win0_1.index t 3 * 64 + 1 * d.val = d.val; omega

/-- Row j of the value block at point t is value row j of that batch and head. -/
theorem value_rows (hb : b.val = t.val / 64) (hh : h.val = t.val / 4 % 16) (j : Fin 2048) (d : Fin 64) :
    (iblk m c 2 t : Vec Ideal S1x1x2048x64 .f32) (ix4 (0 : Fin 1) (0 : Fin 1) j d) = Va m c (ix4 b h j d) := by
  obtain ⟨e0, e1, e2, e3⟩ := index2 t
  unfold iblk
  rw [View.read_apply]
  show V m c main_arg2 _ = _
  rw [V_main_arg2]
  refine congrArg _ (funext fun a => Fin.ext ?_)
  match a with
  | ⟨0, _⟩ => show win0_2.index t 0 * 1 + 1 * 0 = b.val; omega
  | ⟨1, _⟩ => show win0_2.index t 1 * 1 + 1 * 0 = h.val; omega
  | ⟨2, _⟩ => show win0_2.index t 2 * 2048 + 1 * j.val = j.val; omega
  | ⟨3, _⟩ => show win0_2.index t 3 * 64 + 1 * d.val = d.val; omega

/-- Row p of the mask block at point t holds the mask bits of query row q, each widened to 32 bits. -/
theorem mask_rows (hb : b.val = t.val / 64) (hh : h.val = t.val / 4 % 16) (hq : q.val = t.val % 4 * 512 + p.val) (j : Fin 2048) :
    (iblk m c 3 t : Vec Ideal S1x1x512x2048 .i32) (ix4 (0 : Fin 1) (0 : Fin 1) p j) = (Ma m c (ix4 b h q j)).setWidth 32 := by
  obtain ⟨e0, e1, e2, e3⟩ := index3 t
  unfold iblk
  rw [View.read_apply]
  show (V m c main_v0 : S4x16x2048x2048.Idx → BitVec 32) _ = _
  rw [mask_words]
  show (Ma m c _).setWidth 32 = _
  refine congrArg (fun i => (Ma m c i).setWidth 32) (funext fun a => Fin.ext ?_)
  match a with
  | ⟨0, _⟩ => show win0_3.index t 0 * 1 + 1 * 0 = b.val; omega
  | ⟨1, _⟩ => show win0_3.index t 1 * 1 + 1 * 0 = h.val; omega
  | ⟨2, _⟩ => show win0_3.index t 2 * 512 + 1 * p.val = q.val; omega
  | ⟨3, _⟩ => show win0_3.index t 3 * 2048 + 1 * j.val = j.val; omega

/-! ## What a point writes back -/

/-- The weights block of point t is the block of the specification's weights. -/
theorem weights_block (y : S1x1x512x2048.Idx) :
    k0_pay3 (F := Ideal) (iblk m c 0 t) (iblk m c 1 t) (iblk m c 3 t) y
      = attnArr (Qa m c) (Ka m c) (Ma m c) (((cfg0.win 5).blk t).view.emb y) := by
  obtain ⟨u, v, p, k, rfl⟩ : ∃ (u v : Fin 1) (p : Fin 512) (k : Fin 2048), y = ix4 u v p k :=
    ⟨y 0, y 1, y 2, y 3, eq_ix4 y⟩
  obtain ⟨e0, e1, e2, e3⟩ := index5 t
  have hu : u.val = 0 := by omega
  have hv : v.val = 0 := by omega
  have hL : k0_pay3 (F := Ideal) (iblk m c 0 t) (iblk m c 1 t) (iblk m c 3 t) (ix4 u v p k)
      = k0_pay2 (F := Ideal) (iblk m c 0 t) (iblk m c 1 t) (iblk m c 3 t) (ix2 p k) := by
    rw [lay5_0_eq]
    exact Cert.LibLayout.shapeCast_ab_11ab_apply _ _ u v p k
  rw [hL]
  generalize hi : ((cfg0.win 5).blk t).view.emb (ix4 u v p k) = i
  have i0 : (i 0).val = t.val / 64 := by
    rw [← hi]; show win0_5.index t 0 * 1 + 1 * u.val = _; omega
  have i1 : (i 1).val = t.val / 4 % 16 := by
    rw [← hi]; show win0_5.index t 1 * 1 + 1 * v.val = _; omega
  have i2 : (i 2).val = t.val % 4 * 512 + p.val := by
    rw [← hi]; show win0_5.index t 2 * 512 + 1 * p.val = _; omega
  have i3 : (i 3 : Fin 2048) = k := Fin.ext (by
    rw [← hi]; show win0_5.index t 3 * 2048 + 1 * k.val = _; omega)
  show _ = attnAt (Qa m c) (Ka m c) (Ma m c) (i 0) (i 1) (i 2) (i 3)
  rw [i3]
  exact Block.weights_of_blocks (Qa m c) (Ka m c) (Ma m c) (iblk m c 0 t) (iblk m c 1 t) (iblk m c 3 t)
    (i 0) (i 1) (i 2) p
    (query_rows m c t (i 0) (i 1) (i 2) p i0 i1 i2)
    (key_rows m c t (i 0) (i 1) i0 i1)
    (mask_rows m c t (i 0) (i 1) (i 2) p i0 i1 i2) k

/-- The context block of point t is the block of the specification's context. -/
theorem context_block (y : S1x1x512x64.Idx) :
    k0_pay1 (F := Ideal) (k0_pay4 (iblk m c 2 t)) (k0_pay5 (iblk m c 0 t) (iblk m c 1 t) (iblk m c 3 t)) y
      = ctxArr (Qa m c) (Ka m c) (Va m c) (Ma m c) (((cfg0.win 4).blk t).view.emb y) := by
  obtain ⟨u, v, p, d, rfl⟩ : ∃ (u v : Fin 1) (p : Fin 512) (d : Fin 64), y = ix4 u v p d :=
    ⟨y 0, y 1, y 2, y 3, eq_ix4 y⟩
  obtain ⟨e0, e1, e2, e3⟩ := index4 t
  have hu : u.val = 0 := by omega
  have hv : v.val = 0 := by omega
  generalize hi : ((cfg0.win 4).blk t).view.emb (ix4 u v p d) = i
  have i0 : (i 0).val = t.val / 64 := by
    rw [← hi]; show win0_4.index t 0 * 1 + 1 * u.val = _; omega
  have i1 : (i 1).val = t.val / 4 % 16 := by
    rw [← hi]; show win0_4.index t 1 * 1 + 1 * v.val = _; omega
  have i2 : (i 2).val = t.val % 4 * 512 + p.val := by
    rw [← hi]; show win0_4.index t 2 * 512 + 1 * p.val = _; omega
  have i3 : (i 3 : Fin 64) = d := Fin.ext (by
    rw [← hi]; show win0_4.index t 3 * 64 + 1 * d.val = _; omega)
  show _ = ctxAt (Qa m c) (Ka m c) (Va m c) (Ma m c) (i 0) (i 1) (i 2) (i 3)
  rw [i3]
  exact Block.context_of_blocks (Qa m c) (Ka m c) (Va m c) (Ma m c) (iblk m c 0 t) (iblk m c 1 t) (iblk m c 2 t) (iblk m c 3 t)
    (i 0) (i 1) (i 2) p
    (query_rows m c t (i 0) (i 1) (i 2) p i0 i1 i2)
    (key_rows m c t (i 0) (i 1) i0 i1)
    (value_rows m c t (i 0) (i 1) i0 i1)
    (mask_rows m c t (i 0) (i 1) (i 2) p i0 i1 i2) u v d

/-- What point t writes back to the weights array. -/
theorem flushed_weights :
    (dats m 0 c).flushed 5 t = ((cfg0.win 5).blk t).view.read (Elt Ideal) (attnArr (Qa m c) (Ka m c) (Ma m c)) := by
  rw [flushed5]
  unfold out0_5
  rw [View.canon_unit_zero hz]
  simp only [View.ld_unit_zero (S := S1x1x512x64) hz, View.ld_unit_zero (S := S1x1x2048x64) hz,
    View.ld_unit_zero (S := S1x1x512x2048) hz]
  funext y
  exact weights_block m c t y

/-- What point t writes back to the context array. -/
theorem flushed_context :
    (dats m 0 c).flushed 4 t = ((cfg0.win 4).blk t).view.read (Elt Ideal) (ctxArr (Qa m c) (Ka m c) (Va m c) (Ma m c)) := by
  rw [flushed4]
  unfold out0_4
  rw [View.canon_unit_zero hz]
  simp only [View.ld_unit_zero (S := S1x1x512x64) hz, View.ld_unit_zero (S := S1x1x2048x64) hz,
    View.ld_unit_zero (S := S1x1x512x2048) hz]
  funext y
  exact context_block m c t y

/-! ## The blocks cover the arrays -/

theorem mem_weights_block (i : S4x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

theorem mem_context_block (i : S4x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v1_0).slice (win0_4.rect t)).set ↔ _
  rw [View.set_slice_whole, Rect.mem_set_unit]
  exact Iff.rfl

/-- The point that holds row (b, h, q): number (b · 16 + h) · 4 + q / 512. -/
def pointOf (i0 i1 i2 : Nat) (h0 : i0 < 4) (h1 : i1 < 16) (h2 : i2 < 2048) : Fin cfg0.N :=
  ⟨(i0 * 16 + i1) * 4 + i2 / 512, by rw [show cfg0.N = 256 from N_0]; omega⟩

theorem cover_weights (i : S4x16x2048x2048.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 2048 := (i 3).isLt
  refine ⟨pointOf (i 0).val (i 1).val (i 2).val h0 h1 h2, flush0_5 _, ?_⟩
  rw [mem_weights_block]
  obtain ⟨e0, e1, e2, e3⟩ := index5 (pointOf (i 0).val (i 1).val (i 2).val h0 h1 h2)
  have hp : (pointOf (i 0).val (i 1).val (i 2).val h0 h1 h2).val = ((i 0).val * 16 + (i 1).val) * 4 + (i 2).val / 512 := rfl
  intro a
  match a with
  | ⟨0, _⟩ =>
    show win0_5.index _ 0 * 1 ≤ (i 0).val ∧ (i 0).val < win0_5.index _ 0 * 1 + 1
    omega
  | ⟨1, _⟩ =>
    show win0_5.index _ 1 * 1 ≤ (i 1).val ∧ (i 1).val < win0_5.index _ 1 * 1 + 1
    omega
  | ⟨2, _⟩ =>
    show win0_5.index _ 2 * 512 ≤ (i 2).val ∧ (i 2).val < win0_5.index _ 2 * 512 + 512
    omega
  | ⟨3, _⟩ =>
    show win0_5.index _ 3 * 2048 ≤ (i 3).val ∧ (i 3).val < win0_5.index _ 3 * 2048 + 2048
    omega

theorem cover_context (i : S4x16x2048x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 64 := (i 3).isLt
  refine ⟨pointOf (i 0).val (i 1).val (i 2).val h0 h1 h2, flush0_4 _, ?_⟩
  rw [mem_context_block]
  obtain ⟨e0, e1, e2, e3⟩ := index4 (pointOf (i 0).val (i 1).val (i 2).val h0 h1 h2)
  have hp : (pointOf (i 0).val (i 1).val (i 2).val h0 h1 h2).val = ((i 0).val * 16 + (i 1).val) * 4 + (i 2).val / 512 := rfl
  intro a
  match a with
  | ⟨0, _⟩ =>
    show win0_4.index _ 0 * 1 ≤ (i 0).val ∧ (i 0).val < win0_4.index _ 0 * 1 + 1
    omega
  | ⟨1, _⟩ =>
    show win0_4.index _ 1 * 1 ≤ (i 1).val ∧ (i 1).val < win0_4.index _ 1 * 1 + 1
    omega
  | ⟨2, _⟩ =>
    show win0_4.index _ 2 * 512 ≤ (i 2).val ∧ (i 2).val < win0_4.index _ 2 * 512 + 512
    omega
  | ⟨3, _⟩ =>
    show win0_4.index _ 3 * 64 ≤ (i 3).val ∧ (i 3).val < win0_4.index _ 3 * 64 + 64
    omega

/-! ## The two result arrays, and the run -/

theorem final_weights : (dats m 0 c).arrAt 5 cfg0.N = attnArr (Qa m c) (Ka m c) (Ma m c) :=
  (dats m 0 c).arrAt_eq_of_cover 5 (attnArr (Qa m c) (Ka m c) (Ma m c)) (fun t _ => flushed_weights m c t) cover_weights

theorem final_context : (dats m 0 c).arrAt 4 cfg0.N = ctxArr (Qa m c) (Ka m c) (Va m c) (Ma m c) :=
  (dats m 0 c).arrAt_eq_of_cover 4 (ctxArr (Qa m c) (Ka m c) (Va m c) (Ma m c)) (fun t _ => flushed_context m c t) cover_context

/-- Every weakly fair execution of the kernel program terminates with the context array and the weights array at the
    specification of the argument arrays, and the arguments unchanged. -/
theorem run : θ_run defs (onTc (τ := τ) (main (F := Ideal))) ⟨m, fun _ => 0, ρ⟩ fun r => ∀ c : Dev nD,
      r.2.mem ((c : Thread nD τ).loc main_v1_0) = ctxArr (Qa m c) (Ka m c) (Va m c) (Ma m c)
      ∧ r.2.mem ((c : Thread nD τ).loc main_v1_1) = attnArr (Qa m c) (Ka m c) (Ma m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_context m c), (h c).2.1.trans (final_weights m c), (h c).2.2⟩)
    (run_blocks m ρ)

end Cert.Attention.Arrays

end
-- ==== Proof.lean ====
/- Masked scaled-dot-product attention, a blocked kernel against its whole-array reference, on the extended reals.

   Both programs take Q, K, V of shape [4,16,2048,64] and a mask of bits [4,16,2048,2048] and return the context
   [4,16,2048,64] and the attention weights [4,16,2048,2048]. For a batch b, a head h and a query row q the score of key
   k is (Σ_d Q[b,h,q,d] · K[b,h,k,d]) / 8, replaced by -10⁹ where the mask bit is set; the weights of the row are the
   softmax of its scores, exp(s_k − sup_j s_j) / Σ_j exp(s_j − sup s); the context row is Σ_k weight_k · V[b,h,k,d].

   The reference computes exactly this, stage by stage over whole arrays (its row maximum is a reduce from -∞ joined once
   more with -∞, which changes nothing). The kernel runs over 4 · 16 · 4 grid points, each on 512 query rows of one
   (batch, head) against all 2048 keys and values of it, and differs in three places, none of which changes a value:
   it scales the query by 1/8 before the contraction instead of the sum after it — (q · c) · k = (q · k) · c term by
   term, and a nonnegative finite factor distributes over any finite sum of extended reals, so no finiteness of the
   inputs is needed; it reads the mask as 32-bit words the host widened from the bits and tests them for being nonzero,
   which holds exactly when the bit is set; and its two products accumulate from zero and change float format, which on
   exact values is the identity. Block by block the kernel therefore writes the specification's values, and the blocks
   of all grid points cover both result arrays.

   The frames: the two kernel programs terminate without a fault and leave their arguments unchanged by their
   generated frame certificates; the reference by its generated run. The idealization rewrote no operation of the
   kernel, so there is nothing to preserve. -/
import proofs.«130981_j1760936591442_2_alg».proof.Defs
import proofs.«130981_j1760936591442_2_alg».proof.Proof.Gen.Kernel
import proofs.«130981_j1760936591442_2_alg».proof.Proof.Gen.Kernel.Skeleton
import proofs.«130981_j1760936591442_2_alg».proof.Proof.Gen.Kernel.Launch
import proofs.«130981_j1760936591442_2_alg».proof.Proof.Gen.Kernel.Points
import proofs.«130981_j1760936591442_2_alg».proof.Proof.Gen.Kernel.Frame
import proofs.«130981_j1760936591442_2_alg».proof.Proof.Gen.KernelIdeal
import proofs.«130981_j1760936591442_2_alg».proof.Proof.Gen.KernelIdeal.Skeleton
import proofs.«130981_j1760936591442_2_alg».proof.Proof.Gen.KernelIdeal.Launch
import proofs.«130981_j1760936591442_2_alg».proof.Proof.Gen.KernelIdeal.Points
import proofs.«130981_j1760936591442_2_alg».proof.Proof.Gen.KernelIdeal.Frame
import proofs.«130981_j1760936591442_2_alg».proof.Proof.Gen.ReferenceIdeal
import proofs.«130981_j1760936591442_2_alg».proof.Proof.Gen.Pre_finite_inputs
import proofs.«130981_j1760936591442_2_alg».proof.Proof.Gen.KernelIdeal.Value
import proofs.«130981_j1760936591442_2_alg».proof.Proof.Gen.ReferenceIdeal.Run
import proofs.«130981_j1760936591442_2_alg».proof.Proof.Gen.ReferenceIdeal.Read
import proofs.«130981_j1760936591442_2_alg».proof.Proof.ReferenceRows
import proofs.«130981_j1760936591442_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten for the exact reading. -/
theorem preserves : Cert.preserves_Kernel_KernelIdeal := trivial

/-- From arguments that agree, both programs end with the specification's context and weights. -/
theorem algebraic : Cert.algebraic_KernelIdeal_ReferenceIdeal := by
  intro m ρ m' ρ' _ hagree
  refine ⟨fun c => Cert.Attention.ctxArr (Cert.Attention.Arrays.Qa m c) (Cert.Attention.Arrays.Ka m c)
      (Cert.Attention.Arrays.Va m c) (Cert.Attention.Arrays.Ma m c),
    fun c => Cert.Attention.attnArr (Cert.Attention.Arrays.Qa m c) (Cert.Attention.Arrays.Ka m c)
      (Cert.Attention.Arrays.Ma m c),
    Cert.Attention.Arrays.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v15_eq, Cert.Attention.Reference.context_eq,
      (hagree c).1, (hagree c).2.1, (hagree c).2.2.1, (hagree c).2.2.2]
  · rw [Cert.ReferenceIdeal.Read.val_main_v14_eq, Cert.Attention.Reference.weights_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
